-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216x8 : Shape := ⟨2, ![16777216, 8]⟩
abbrev S_ : Shape := ⟨0, ![]⟩

class Facts : Prop where
  bcast_S_S16777216x8 : S_.BroadcastsInDim S16777216x8 (![] : Fin 0 → Fin S16777216x8.rank)
  reducesTo_S16777216x8_S_d0_1 : S16777216x8.ReducesTo [0, 1] S_
  h_S_ : 0 < S_.numel

variable [Facts]

def fn {F : FTy → Type} [FloatOps F] (main_arg0 : FVec F S16777216x8 .f32) : IVec S_ 1 :=
  let main_v0 : FVec F S16777216x8 .f32 := Host.absf main_arg0
  let main_cst : FVec F S_ .f32 := constant S_ .f32 0x7F800000#32
  let main_v1 : FVec F S16777216x8 .f32 := broadcastInDim S16777216x8 ![] bcast_S_S16777216x8 main_cst
  let main_v2 : IVec S16777216x8 1 := cmpf .olt main_v0 main_v1
  let main_c : IVec S_ 1 := constantI S_ 1 1#1
  let main_v3 : IVec S_ 1 := (fun x v => Host.reduce IntOp.andi x v reducesTo_S16777216x8_S_d0_1 h_S_) main_v2 main_c
  main_v3
-- ==== Kernel.lean ====
abbrev S16777216x8 : Shape := ⟨2, ![16777216, 8]⟩
abbrev S131072x1024 : Shape := ⟨2, ![131072, 1024]⟩
abbrev S131072x128 : Shape := ⟨2, ![131072, 128]⟩
abbrev S2048x1024 : Shape := ⟨2, ![2048, 1024]⟩
abbrev S2048x128 : Shape := ⟨2, ![2048, 128]⟩
abbrev S2048x128x8 : Shape := ⟨3, ![2048, 128, 8]⟩
abbrev S2048x128x1 : Shape := ⟨3, ![2048, 128, 1]⟩
abbrev S16777216 : Shape := ⟨1, ![16777216]⟩

abbrev nBuf : Space → Nat
  | .hbm => 4
  | .vmem => 4
  | .smem => 0
  | _ => 0

abbrev bufTy : (tb : Table) → Fin (tcTables nBuf tb) → BufTy
  | .hbm, ⟨0, _⟩ => ⟨S16777216x8, .f32⟩
  | .hbm, ⟨1, _⟩ => ⟨S131072x1024, .f32⟩
  | .hbm, ⟨2, _⟩ => ⟨S131072x128, .f32⟩
  | .hbm, ⟨3, _⟩ => ⟨S16777216, .f32⟩
  | .local _ .vmem, ⟨0, _⟩ => ⟨S2048x1024, .f32⟩
  | .local _ .vmem, ⟨1, _⟩ => ⟨S2048x1024, .f32⟩
  | .local _ .vmem, ⟨2, _⟩ => ⟨S2048x128, .f32⟩
  | .local _ .vmem, ⟨3, _⟩ => ⟨S2048x128, .f32⟩
  | _, _ => ⟨S16777216x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16777216x8_S131072x1024 : S16777216x8.ShapeCasts S131072x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  shapeCasts_S2048x1024_S2048x128x8 : S2048x1024.ShapeCasts S2048x128x8
  slices_S2048x128x8_o0_0_7_S2048x128x1 : S2048x128x8.Slices ![0, 0, 7] S2048x128x1
  shapeCasts_S2048x128x1_S2048x128 : S2048x128x1.ShapeCasts S2048x128
  inb_S2048x128_S2048x128_0_0 : ∀ a, (![0, 0] : Fin 2 → Nat) a + S2048x128.size a ≤ S2048x128.size a
  h_S2048x128 : 0 < S2048x128.numel
  shapeCasts_S131072x128_S16777216 : S131072x128.ShapeCasts S16777216
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S131072x1024.size a
  hwx0_0 : ∀ i : grid0.Coords, EltTy.bits .f32 = 32 ∨ (Rect.block (s := S131072x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S131072x128.size a
  hwx0_1 : ∀ i : grid0.Coords, EltTy.bits .f32 = 32 ∨ (Rect.block (s := S131072x128) S2048x128.size (cc0_transform_1 i) (hinb0_1 i)).WholeWords (EltTy.packing .f32)

variable [Facts₀]

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16777216x8 : Shape := ⟨2, ![16777216, 8]⟩
abbrev S16777216x1 : Shape := ⟨2, ![16777216, 1]⟩
abbrev S16777216 : Shape := ⟨1, ![16777216]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S16777216x8, .f32⟩
  | .hbm, ⟨1, _⟩ => ⟨S16777216x1, .f32⟩
  | .hbm, ⟨2, _⟩ => ⟨S16777216, .f32⟩
  | .hbm, ⟨3, _⟩ => ⟨S_, .f32⟩
  | .hbm, ⟨4, _⟩ => ⟨S16777216, .f32⟩
  | .hbm, ⟨5, _⟩ => ⟨S16777216, .i1⟩
  | .hbm, ⟨6, _⟩ => ⟨S_, .f32⟩
  | .hbm, ⟨7, _⟩ => ⟨S16777216, .f32⟩
  | .hbm, ⟨8, _⟩ => ⟨S16777216, .i1⟩
  | .hbm, ⟨9, _⟩ => ⟨S16777216, .i1⟩
  | .hbm, ⟨10, _⟩ => ⟨S_, .f32⟩
  | .hbm, ⟨11, _⟩ => ⟨S16777216, .f32⟩
  | .hbm, ⟨12, _⟩ => ⟨S16777216, .f32⟩
  | .hbm, ⟨13, _⟩ => ⟨S_, .f32⟩
  | .hbm, ⟨14, _⟩ => ⟨S16777216, .f32⟩
  | .hbm, ⟨15, _⟩ => ⟨S16777216, .f32⟩
  | .hbm, ⟨16, _⟩ => ⟨S16777216, .f32⟩
  | .hbm, ⟨17, _⟩ => ⟨S_, .f32⟩
  | .hbm, ⟨18, _⟩ => ⟨S16777216, .f32⟩
  | .hbm, ⟨19, _⟩ => ⟨S16777216, .f32⟩
  | .hbm, ⟨20, _⟩ => ⟨S_, .f32⟩
  | .hbm, ⟨21, _⟩ => ⟨S16777216, .f32⟩
  | .hbm, ⟨22, _⟩ => ⟨S16777216, .f32⟩
  | .hbm, ⟨23, _⟩ => ⟨S_, .f32⟩
  | .hbm, ⟨24, _⟩ => ⟨S_, .f32⟩
  | .hbm, ⟨25, _⟩ => ⟨S16777216, .f32⟩
  | .hbm, ⟨26, _⟩ => ⟨S16777216, .f32⟩
  | _, _ => ⟨S16777216x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_3 : Ref sig .tc := ⟨.hbm, 17, rfl⟩
abbrev main_v12 : Ref sig .tc := ⟨.hbm, 18, rfl⟩
abbrev main_v13 : Ref sig .tc := ⟨.hbm, 19, rfl⟩
abbrev main_cst_4 : Ref sig .tc := ⟨.hbm, 20, rfl⟩
abbrev main_v14 : Ref sig .tc := ⟨.hbm, 21, rfl⟩
abbrev main_v15 : Ref sig .tc := ⟨.hbm, 22, rfl⟩
abbrev main_cst_5 : Ref sig .tc := ⟨.hbm, 23, rfl⟩
abbrev main_call0_v0 : Ref sig .tc := ⟨.hbm, 24, rfl⟩
abbrev main_call0_v1 : Ref sig .tc := ⟨.hbm, 25, rfl⟩
abbrev main_v16 : Ref sig .tc := ⟨.hbm, 26, rfl⟩

abbrev nD : Nat := 1
abbrev τ : Topo := Topo.v7x

variable {F : FTy → Type} [FloatOps F]

class Facts₀ : Prop where
  slices_S16777216x8_S16777216x1_0_7 : S16777216x8.Slices ![0, 7] S16777216x1
  shapeCasts_S16777216x1_S16777216 : S16777216x1.ShapeCasts S16777216
  bcast_S_S16777216 : S_.BroadcastsInDim S16777216 (![] : Fin 0 → Fin S16777216.rank)

variable [Facts₀]

class Facts : Prop extends Facts₀ where

variable [Facts]
-- ==== Proof.PenaltySpec.lean ====
/-
  The penalty both programs compute, as one function of the argument array.

  The argument is a table of 16777216 rows of eight design variables. Only the LAST variable of a row matters:
  with `v` that entry, the row's result is `0 + a · exp (b · (1 + v))` when `0 ≤ v ≤ 1` and the constant `3`
  otherwise, where `a`, `b` are the binary values the two programs both spell (the f32 words nearest 0.01 and
  4.81). `cost` is that scalar rule, written once over any float instance with the operations in the order both
  programs apply them; the words are kept as words, since the same word stands on both sides.

  Two arrangements of the rule over arrays follow. `lastColumnCost` is the result as the reference sees it: entry
  `n` is the cost of entry `(n, 7)` of the table. `laneCost` is what the kernel's grid leaves: the table re-read
  as 131072 rows of 1024 lanes (each group of eight consecutive lanes is one table row), its entry `(r, j)` the
  cost of lane `8 j + 7` of row `r`. `relayout` says the two are one array up to the row-major re-reading on
  either side: position `n = 128 r + j` of the flat result is lane `8 j + 7` of
  row `r`, which is flat position `1024 r + 8 j + 7 = 8 n + 7` of the table, that is entry `(n, 7)`.
-/
import Idealize.ShloMosaic.PureOps.Ideal
import Idealize.ShloMosaic.Lib.ValueIdx
import Idealize.ShloMosaic.Lib.Pipeline.Value

noncomputable section

namespace Cert.Penalty

open Idealize.ShloMosaic Idealize.ShloMosaic.ValueIdx

variable {F : FTy → Type} [FloatOps F]

/-- One row's result from its last design variable `v`: `0 + a · exp (b · (1 + v))` inside `[0, 1]`, `3` outside. -/
def cost (v : F .f32) : F .f32 :=
  Scalar.select
    (IntOp.andi (FloatOps.cmpf .oge v (FloatOps.ofBits .f32 0x00000000#32))
      (FloatOps.cmpf .ole v (FloatOps.ofBits .f32 0x3F800000#32)))
    (FloatOps.addf (FloatOps.ofBits .f32 0x00000000#32)
      (FloatOps.mulf (FloatOps.ofBits .f32 0x3C23D70A#32)
        (FloatOps.exp (FloatOps.mulf (FloatOps.ofBits .f32 0x4099EB85#32)
          (FloatOps.addf (FloatOps.ofBits .f32 0x3F800000#32) v)))))
    (FloatOps.ofBits .f32 0x40400000#32)

/-- The result over the table: entry `n` is the cost of the table's entry `(n, 7)`. -/
def lastColumnCost (X : FVec F ⟨2, ![16777216, 8]⟩ .f32) : FVec F ⟨1, ![16777216]⟩ .f32 :=
  fun n => cost (X (ix2 (⟨(n 0).val, (n 0).isLt⟩ : Fin 16777216) (7 : Fin 8)))

/-- The result over the lane-dense re-reading of the table: entry `(r, j)` is the cost of lane `8 j + 7` of row `r`. -/
def laneCost (A : FVec F ⟨2, ![131072, 1024]⟩ .f32) : FVec F ⟨2, ![131072, 128]⟩ .f32 :=
  fun i => cost (A (ix2 (⟨(i 0).val, (i 0).isLt⟩ : Fin 131072)
    (⟨8 * (i 1).val + 7, by have h : (i 1).val < 128 := (i 1).isLt; omega⟩ : Fin 1024)))

/-- Re-reading the table lane-dense, taking `laneCost`, and flattening gives `lastColumnCost` of the table. -/
theorem relayout (X : FVec F ⟨2, ![16777216, 8]⟩ .f32)
    (h1 : (⟨2, ![16777216, 8]⟩ : Shape).ShapeCasts ⟨2, ![131072, 1024]⟩)
    (h2 : (⟨2, ![131072, 128]⟩ : Shape).ShapeCasts ⟨1, ![16777216]⟩) :
    shapeCast ⟨1, ![16777216]⟩ (laneCost (shapeCast ⟨2, ![131072, 1024]⟩ X h1)) h2 = lastColumnCost X := by
  funext n
  obtain ⟨a, rfl⟩ : ∃ a : Fin 16777216, n = ix1 a := ⟨n 0, eq_ix1 n⟩
  have ha : a.val < 16777216 := a.isLt
  refine (shapeCast_apply _ h2 (ix1 a)
    (ix2 (⟨a.val / 128, by omega⟩ : Fin 131072) (⟨a.val % 128, by omega⟩ : Fin 128)) ?_).trans ?_
  · rw [Shape.rowMajor_val_two, Shape.rowMajor_val_one]
    show a.val / 128 * 128 + a.val % 128 = a.val
    omega
  · show cost (shapeCast ⟨2, ![131072, 1024]⟩ X h1
        (ix2 (⟨a.val / 128, by omega⟩ : Fin 131072) (⟨8 * (a.val % 128) + 7, by omega⟩ : Fin 1024)))
      = cost (X (ix2 a (7 : Fin 8)))
    refine congrArg cost ?_
    refine shapeCast_apply X h1 _ (ix2 a (7 : Fin 8)) ?_
    rw [Shape.rowMajor_val_two, Shape.rowMajor_val_two]
    show a.val * 8 + 7 = a.val / 128 * 1024 + (8 * (a.val % 128) + 7)
    omega

end Cert.Penalty

end
-- ==== Proof.RefRead.lean ====
/-
  The reference's result, read at an index, is the penalty of the table's entry `(n, 7)`.

  The reference slices column 7 out of the table, drops the unit axis, and applies the rule with every constant
  broadcast from a scalar; its exponential is the host's, which on the extended reals is the same function as the
  kernel's. Reading each operation at an index `n` leaves the scalar rule applied to the table's entry `(n, 7)`.
-/
import proofs.«161904_j13022340841535_2_alg».proof.Proof.Gen.ReferenceIdeal.Read
import proofs.«161904_j13022340841535_2_alg».proof.Proof.PenaltySpec

noncomputable section

namespace Cert.ReferenceIdeal.RefValue

open Cert.ReferenceIdeal Cert.ReferenceIdeal.Read Idealize.ShloMosaic Idealize.ShloMosaic.ValueIdx Cert.Penalty

/-- The slice-then-flatten reads the table at `(n, 7)`. -/
theorem column_index (n : S16777216.Idx) :
    idx_main_v0 (idx_main_v1 n) = ix2 (⟨(n 0).val, (n 0).isLt⟩ : Fin 16777216) (7 : Fin 8) :=
  funext fun a => Fin.ext (by
    match a with
    | ⟨0, _⟩ => show (n 0).val / 1 = (n 0).val; omega
    | ⟨1, _⟩ => rfl)

/-- On the extended reals the reference's last stage is `lastColumnCost` of its argument. -/
theorem result_eq (X : (⟨S16777216x8, .f32⟩ : BufTy).Contents (Elt Ideal)) :
    val_main_v16 (F := Ideal) X = lastColumnCost (F := Ideal) X := by
  funext n
  simp only [val_main_v16_apply, val_main_v6_apply, val_main_v3_apply, val_main_v5_apply, val_main_v15_apply,
    val_main_v13_apply, val_main_v11_apply, val_main_v10_apply, val_main_v8_apply, val_main_v1_apply,
    val_main_v0_apply, val_main_v2_apply, val_main_v4_apply, val_main_v7_apply, val_main_v9_apply,
    val_main_v12_apply, val_main_v14_apply, val_main_call0_v1_apply, val_main_call0_v0_apply,
    val_main_cst_apply, val_main_cst_0_apply, val_main_cst_1_apply, val_main_cst_2_apply, val_main_cst_3_apply,
    val_main_cst_4_apply, val_main_cst_5_apply, column_index]
  rfl

end Cert.ReferenceIdeal.RefValue

end
-- ==== Proof.LaneSeven.lean ====
/-
  The kernel body's value at an index.

  The body loads a block of 2048 rows by 1024 lanes, re-reads it as 2048 × 128 × 8, keeps entry 7 of the last
  axis, drops that axis, and applies the penalty rule to every entry of the 2048 × 128 result. Row-major
  re-reading keeps positions: entry `(r, j, 7)` of the 2048 × 128 × 8 reading sits at position
  `(128 r + j) · 8 + 7 = 1024 r + (8 j + 7)`, which is lane `8 j + 7` of row `r` of the block. So the stored
  value at `(r, j)` is the cost of the block's entry `(r, 8 j + 7)`.
-/
import proofs.«161904_j13022340841535_2_alg».proof.Proof.Gen.KernelIdeal.Skeleton
import proofs.«161904_j13022340841535_2_alg».proof.Proof.PenaltySpec
import Idealize.ShloMosaic.Lib.Pipeline.Value
import Idealize.ShloMosaic.Lib.ValueIdx

noncomputable section

namespace Cert.KernelIdeal.Bridge

open Cert.KernelIdeal Cert.KernelIdeal.Gen Idealize.ShloMosaic Idealize.ShloMosaic.ValueIdx Cert.Penalty

variable {F : FTy → Type} [FloatOps F]

/-- The body's layout steps alone: the last of every eight consecutive lanes of the block. -/
def lastOfEight (x0 : Vec F S2048x1024 .f32) : FVec F S2048x128 .f32 :=
  shapeCast S2048x128
    (extractStridedSlice S2048x128x1 ![0, 0, 7]
      (shapeCast S2048x128x8 (shapeCast S2048x1024 x0 shapeCasts_S2048x1024_S2048x1024) shapeCasts_S2048x1024_S2048x128x8)
      slices_S2048x128x8_o0_0_7_S2048x128x1)
    shapeCasts_S2048x128x1_S2048x128

/-- Entry `(r, j)` of the extracted array is lane `8 j + 7` of row `r` of the block. -/
theorem lastOfEight_apply (x0 : Vec F S2048x1024 .f32) (r : Fin 2048) (j : Fin 128) :
    lastOfEight x0 (ix2 r j) = x0 (ix2 r (⟨8 * j.val + 7, by have h : j.val < 128 := j.isLt; omega⟩ : Fin 1024)) := by
  have hr : r.val < 2048 := r.isLt
  have hj : j.val < 128 := j.isLt
  unfold lastOfEight
  refine (shapeCast_apply _ shapeCasts_S2048x128x1_S2048x128 (ix2 r j) (ix3 r j (0 : Fin 1)) ?_).trans ?_
  · rw [Shape.rowMajor_val_three, Shape.rowMajor_val_two]
    show (r.val * 128 + j.val) * 1 + 0 = r.val * 128 + j.val
    omega
  refine (extractStridedSlice_apply ![0, 0, 7] _ slices_S2048x128x8_o0_0_7_S2048x128x1 (ix3 r j (0 : Fin 1))
    (ix3 r j (7 : Fin 8)) (fun a => match a with
      | ⟨0, _⟩ => by show r.val = 0 + r.val; omega
      | ⟨1, _⟩ => by show j.val = 0 + j.val; omega
      | ⟨2, _⟩ => by show 7 = 7 + 0; omega)).trans ?_
  refine (shapeCast_apply _ shapeCasts_S2048x1024_S2048x128x8 (ix3 r j (7 : Fin 8))
    (ix2 r (⟨8 * j.val + 7, by omega⟩ : Fin 1024)) ?_).trans ?_
  · rw [Shape.rowMajor_val_two, Shape.rowMajor_val_three]
    show r.val * 1024 + (8 * j.val + 7) = (r.val * 128 + j.val) * 8 + 7
    omega
  rw [shapeCast_self]

/-- The stored value at `(r, j)` is the cost of the block's entry `(r, 8 j + 7)`: the body's arithmetic is the
    penalty rule applied entry by entry to the extracted array. -/
theorem payload_apply (x0 : Vec F S2048x1024 .f32) (r : Fin 2048) (j : Fin 128) :
    k0_pay1 x0 (ix2 r j) = cost (x0 (ix2 r (⟨8 * j.val + 7, by have h : j.val < 128 := j.isLt; omega⟩ : Fin 1024))) :=
  (rfl : k0_pay1 x0 (ix2 r j) = cost (lastOfEight x0 (ix2 r j))).trans (congrArg cost (lastOfEight_apply x0 r j))

end Cert.KernelIdeal.Bridge

end
-- ==== Proof.LaneBlocks.lean ====
/-
  From the grid's blocks to the whole lane-dense result.

  The grid has 64 points; point `t` reads rows `2048 t … 2048 t + 2047` of the 131072 × 1024 re-reading of the
  table (all 1024 lanes) and writes the same rows of the 131072 × 128 result (all 128 lanes). What it writes is,
  by the body's value at an index, `laneCost` of the re-read table restricted to those rows. Every row `i`
  belongs to the block of point `i / 2048`, so the blocks cover the result and the array ends at `laneCost` of
  the table as the region finds it.
-/
import proofs.«161904_j13022340841535_2_alg».proof.Proof.Gen.KernelIdeal.Frame
import proofs.«161904_j13022340841535_2_alg».proof.Proof.LaneSeven

set_option maxRecDepth 16384

noncomputable section

namespace Cert.KernelIdeal.Bridge

open Cert.KernelIdeal Cert.KernelIdeal.Gen Idealize.ShloMosaic Idealize.ShloMosaic.TcCoe Idealize.ShloMosaic.ValueIdx Cert.Penalty
open Idealize.SL.Sem
open Idealize.ShloMosaic.Pipeline (Dat)

variable {F : FTy → Type} [FloatOps F]

theorem zero_offsets : (![0, 0] : Fin 2 → Nat) = fun _ => 0 := funext fun a => by fin_cases a <;> rfl

/-- One block against the whole array: if the block `x0` holds rows `2048 q …` of `A`, then the body's value at
    a block index `y` is `laneCost A` at the array index `i` that `y` sits under. -/
theorem block_point (A : FVec F S131072x1024 .f32) (x0 : Vec F S2048x1024 .f32) (q : Nat)
    (hx : ∀ (r : Fin 2048) (l : Fin 1024) (k : S131072x1024.Idx), (k 0).val = q * 2048 + r.val → (k 1).val = l.val →
      x0 (ix2 r l) = A k)
    (y : S2048x128.Idx) (i : S131072x128.Idx) (hi0 : (i 0).val = q * 2048 + (y 0).val) (hi1 : (i 1).val = (y 1).val) :
    k0_pay1 x0 y = laneCost A i := by
  obtain ⟨r, j, rfl⟩ : ∃ (r : Fin 2048) (j : Fin 128), y = ix2 r j := ⟨y 0, y 1, eq_ix2 y⟩
  rw [payload_apply]
  unfold laneCost
  refine congrArg cost (hx r _ _ hi0 ?_)
  show 8 * (i 1).val + 7 = 8 * j.val + 7
  rw [hi1]

variable (m : (ℓ : Loc nD τ sig) → Buf (Elt F) ℓ)

/-- The printed index maps over the grid: both windows move along the rows with the point and stay at lane
    block 0. -/
theorem index_facts : ∀ t : Fin cfg0.N, win0_0.index t (0 : Fin 2) = win0_1.index t (0 : Fin 2)
    ∧ win0_0.index t (1 : Fin 2) = 0 ∧ win0_1.index t (1 : Fin 2) = 0 :=
  (by decide +kernel : ∀ t : Fin grid0.N, _)

/-- Every row block is some point's. -/
theorem index_onto : ∀ q : Fin 64, ∃ t : Fin cfg0.N, win0_1.index t = ![q.val, 0] :=
  (by decide +kernel : ∀ q : Fin 64, ∃ t : Fin grid0.N, win0_1.index t = ![q.val, 0])

/-- What point `t` writes back is block `t` of `laneCost` of the re-read table. -/
theorem flushed_eq (c : Dev nD) (t : Fin cfg0.N) :
    (dats m 0 c).flushed 1 t = ((cfg0.win 1).blk t).view.read (Elt F) (laneCost (V m c main_v0)) := by
  show (cfg0.win 1).cut (grid0.coords t) ((dats m 0 c).after 1 t) = _
  rw [after0_1]
  unfold out0_1
  rw [View.canon_unit_zero zero_offsets]
  simp only [View.ld_unit_zero (S := S2048x1024) zero_offsets]
  obtain ⟨e0, e1, e2⟩ := index_facts t
  funext y
  refine block_point (V m c main_v0) (iblk m c 0 t) (win0_1.index t (0 : Fin 2)) ?_ y
    (((cfg0.win 1).blk t).view.emb y) ?_ ?_
  · intro r l k h0 h1
    show V m c main_v0 (((cfg0.win 0).blk t).view.emb (ix2 r l)) = V m c main_v0 k
    have h : ((cfg0.win 0).blk t).view.emb (ix2 r l) = k := by
      funext a; apply Fin.ext
      match a with
      | ⟨0, _⟩ => show win0_0.index t (0 : Fin 2) * 2048 + 1 * r.val = (k 0).val; omega
      | ⟨1, _⟩ => show win0_0.index t (1 : Fin 2) * 1024 + 1 * l.val = (k 1).val; omega
    rw [h]
  · show win0_1.index t (0 : Fin 2) * 2048 + 1 * (y 0).val = win0_1.index t (0 : Fin 2) * 2048 + (y 0).val
    omega
  · show win0_1.index t (1 : Fin 2) * 128 + 1 * (y 1).val = (y 1).val
    omega

/-- An index of the result is in point `t`'s block iff each coordinate is in the block's range on its axis. -/
theorem mem_block (t : Fin cfg0.N) (i : S131072x128.Idx) :
    i ∈ ((cfg0.win 1).blk t).view.set ↔ ∀ a : Fin 2, win0_1.index t a * S2048x128.size a ≤ (i a).val
      ∧ (i a).val < win0_1.index t a * S2048x128.size a + S2048x128.size a := by
  show i ∈ ((View.whole main_v1).slice (win0_1.rect t)).set ↔ _
  rw [View.set_slice_whole, Rect.mem_set_unit]
  exact Iff.rfl

/-- Row `i` lies in the block of point `i / 2048`. -/
theorem blocks_cover (i : S131072x128.Idx) :
    ∃ t : Fin cfg0.N, (cfg0.win 1).flush t = true ∧ i ∈ ((cfg0.win 1).blk t).view.set := by
  have hi0 : (i 0).val < 131072 := (i 0).isLt
  have hi1 : (i 1).val < 128 := (i 1).isLt
  obtain ⟨t, ht⟩ := index_onto ⟨(i 0).val / 2048, by omega⟩
  have q0 : win0_1.index t (0 : Fin 2) = (i 0).val / 2048 := congrFun ht 0
  have q1 : win0_1.index t (1 : Fin 2) = 0 := congrFun ht 1
  refine ⟨t, flush0_1 t, ?_⟩
  rw [mem_block]
  intro a
  match a with
  | ⟨0, _⟩ =>
    show win0_1.index t (0 : Fin 2) * 2048 ≤ (i 0).val ∧ (i 0).val < win0_1.index t (0 : Fin 2) * 2048 + 2048
    omega
  | ⟨1, _⟩ =>
    show win0_1.index t (1 : Fin 2) * 128 ≤ (i 1).val ∧ (i 1).val < win0_1.index t (1 : Fin 2) * 128 + 128
    omega

/-- The result array after the region: `laneCost` of the re-read table as the region finds it. -/
theorem lanes_final (c : Dev nD) : (dats m 0 c).arrAt 1 cfg0.N = laneCost (V m c main_v0) :=
  (dats m 0 c).arrAt_eq_of_cover 1 (laneCost (V m c main_v0)) (fun t _ => flushed_eq m c t) blocks_cover

end Cert.KernelIdeal.Bridge

end
-- ==== Proof.HostEnds.lean ====
/-
  The two host lines around the region, and the kernel program's run read as a value.

  Before the region the table is re-read row-major as 131072 × 1024; after it the 131072 × 128 result is re-read
  row-major as one axis of 16777216. With the region's array at `laneCost` of the re-read table, the flat
  result is `lastColumnCost` of the table (`relayout`): flat position `n = 128 r + j` holds the cost of lane
  `8 j + 7` of row `r`, which is the table's entry `(n, 7)`.
-/
import proofs.«161904_j13022340841535_2_alg».proof.Proof.Gen.KernelIdeal.Frame
import proofs.«161904_j13022340841535_2_alg».proof.Proof.LaneBlocks
import Idealize.ShloMosaic.Lib.StableHlo.Run

set_option maxRecDepth 16384

noncomputable section

namespace Cert.KernelIdeal.Bridge

open Cert.KernelIdeal Cert.KernelIdeal.Gen Idealize.ShloMosaic Idealize.ShloMosaic.TcCoe Idealize.ShloMosaic.ValueIdx Cert.Penalty
open Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-- The region finds the table re-read row-major as 131072 rows of 1024 lanes. -/
theorem entry_lanes (c : Dev nD) :
    (V m c main_v0 : S131072x1024.Idx → F .f32)
      = shapeCast S131072x1024 (m ((c : Thread nD τ).loc main_arg0)) shapeCasts_S16777216x8_S131072x1024 := by
  show StableHlo.after hostOps0 (fun b => m (c, b)) (Proc.devRef .tc main_v0) = _
  after_results
  rfl

/-- The line after the region flattens the region's result array. -/
theorem tail_flat (c : Dev nD) :
    (Pipeline.afterTail₀ cfgs (dats m) 0 (V0 m) [hostOps1] c main_v2 : S16777216.Idx → F .f32)
      = shapeCast S16777216 ((dats m 0 c).arrAt 1 cfg0.N) shapeCasts_S131072x128_S16777216 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = (dats m 0 c).arrAt 1 cfg0.N :=
    Pipeline.withArrays_arr spec0 launch0.win.arr_inj c (V0 m c) (fun w => (dats m 0 c).arrAt w (cfgs 0).N) 1
  rw [e]
  rfl

/-- The flat result after the whole program: `lastColumnCost` of the table as launched. -/
theorem result_eq (c : Dev nD) :
    (Pipeline.afterTail₀ cfgs (dats m) 0 (V0 m) [hostOps1] c main_v2 : S16777216.Idx → F .f32)
      = lastColumnCost (m ((c : Thread nD τ).loc main_arg0)) := by
  rw [tail_flat, lanes_final, entry_lanes]
  exact relayout _ _ _

/-- Every weakly fair execution of the kernel program terminates with its result at `lastColumnCost` of the table
    and the table unchanged. -/
theorem run : θ_run defs (onTc (τ := τ) (main (F := F))) ⟨m, fun _ => 0, ρ⟩ fun r => ∀ c : Dev nD,
      r.2.mem ((c.tc : Thread nD τ).loc main_v2) = lastColumnCost (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.KernelIdeal.Bridge

end
-- ==== Proof.lean ====
/-
  The kernel and its reference compute one function of the table of design variables.

  The argument is a table of 16777216 rows of eight design variables; the result has one entry per row, the
  penalty of the row's LAST variable `v`: `0 + a · exp (b · (1 + v))` when `0 ≤ v ≤ 1`, the constant `3`
  otherwise (`Cert.Penalty.cost`; `a`, `b` the same binary words in both programs).

  The reference slices column 7 of the table and applies the rule (`RefRead`). The kernel re-reads the table
  row-major as 131072 rows of 1024 lanes, so that each group of eight consecutive lanes is one table row; its
  grid of 64 points takes 2048 such rows at a time, keeps the last lane of every group of eight, and applies the
  rule (`LaneSeven`, `LaneBlocks`); the 131072 × 128 result is re-read row-major as one axis. Flat position
  `n = 128 r + j` of that result comes from lane `8 j + 7` of row `r`, that is flat position `8 n + 7` of the
  table, that is its entry `(n, 7)` (`Cert.Penalty.relayout`, used in `HostEnds`). Both sides apply the same
  operations in the same order to the same entry, so they agree on every extended real: no finiteness is used,
  and the exponential of the host and of the kernel are one function there.

  The idealized kernel is the kernel's own text read on the extended reals (nothing was rewritten), so the
  preservation claim is trivial; the three frame claims are the generated frame runs.
-/
import proofs.«161904_j13022340841535_2_alg».proof.Defs
import proofs.«161904_j13022340841535_2_alg».proof.Proof.Gen.Kernel
import proofs.«161904_j13022340841535_2_alg».proof.Proof.Gen.Kernel.Skeleton
import proofs.«161904_j13022340841535_2_alg».proof.Proof.Gen.Kernel.Launch
import proofs.«161904_j13022340841535_2_alg».proof.Proof.Gen.Kernel.Points
import proofs.«161904_j13022340841535_2_alg».proof.Proof.Gen.Kernel.Frame
import proofs.«161904_j13022340841535_2_alg».proof.Proof.Gen.KernelIdeal
import proofs.«161904_j13022340841535_2_alg».proof.Proof.Gen.KernelIdeal.Skeleton
import proofs.«161904_j13022340841535_2_alg».proof.Proof.Gen.KernelIdeal.Launch
import proofs.«161904_j13022340841535_2_alg».proof.Proof.Gen.KernelIdeal.Points
import proofs.«161904_j13022340841535_2_alg».proof.Proof.Gen.KernelIdeal.Frame
import proofs.«161904_j13022340841535_2_alg».proof.Proof.Gen.ReferenceIdeal
import proofs.«161904_j13022340841535_2_alg».proof.Proof.Gen.Pre_finite_inputs
import proofs.«161904_j13022340841535_2_alg».proof.Proof.Gen.ReferenceIdeal.Run
import proofs.«161904_j13022340841535_2_alg».proof.Proof.Gen.ReferenceIdeal.Read
import proofs.«161904_j13022340841535_2_alg».proof.Proof.RefRead
import proofs.«161904_j13022340841535_2_alg».proof.Proof.HostEnds
import Idealize.ShloMosaic.Adequacy
import Idealize.ShloMosaic.Init

noncomputable section

namespace Cert.Proof

open Idealize.ShloMosaic Idealize.ShloMosaic.TcCoe Idealize.SL.Sem

/-- The word-level kernel runs and leaves the table unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's run, with its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel was rewritten on the way to the extended reals. -/
theorem preserves : Cert.preserves_Kernel_KernelIdeal := trivial

/-- On the extended reals both programs end with `lastColumnCost` of the table: the kernel by its run read as a
    value, the reference by its run read one operation at a time, from tables that agree. -/
theorem algebraic : Cert.algebraic_KernelIdeal_ReferenceIdeal := by
  intro m ρ m' ρ' _ hagree
  refine ⟨_, Cert.KernelIdeal.Bridge.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
